-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4x16x2048x2048 : Shape := ⟨4, ![4, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S64x2048x2048, .f32⟩
  | .hbm, ⟨8, _⟩ => ⟨S4x16x2048x64, .f32⟩
  | .hbm, ⟨9, _⟩ => ⟨S4x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S64x2048x64_S4x16x2048x64 : S64x2048x64.ShapeCasts S4x16x2048x64
  shapeCasts_S64x2048x2048_S4x16x2048x2048 : S64x2048x2048.ShapeCasts S4x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x2048x2048.size a
  hwx0_4 : ∀ i : grid0.Coords, EltTy.bits .f32 = 32 ∨ (Rect.block (s := S64x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Row.lean ====
/-
  One row of attention scores, in the two arrangements the two programs compute it.

  For a query row `q : Fin D → EReal` and keys `k : Fin S → Fin D → EReal` over the extended reals:
  • `scoreK c q k s`: the scale `c` multiplies the query before the dot product, and the exponentials are normalised by
    their plain sum — `exp (∑ d, (q d · c) · k s d) / ∑ t, exp (∑ d, (q d · c) · k t d)`;
  • `scoreR sc mx z q k s`: the scale `sc` multiplies the dot product, a shift `mx` is subtracted before the
    exponential, and the sum starts from `z` — `exp ((∑ d, q d · k s d) · sc − mx) / (z + ∑ t, exp ((∑ d, q d · k t d) · sc − mx))`.
  On real entries, with one real scale, any real shift and `z = 0`, the two are the same number.
-/
import Idealize.ShloMosaic.PureOps.Ideal

noncomputable section

namespace Cert.Attn

open Idealize.ShloMosaic

/-- The scale folded into the query; no shift; the plain sum below. -/
def scoreK {D S : ℕ} (c : EReal) (q : Fin D → EReal) (k : Fin S → Fin D → EReal) (s : Fin S) : EReal :=
  Ideal.div (Ideal.exp (∑ d, (q d * c) * k s d)) (∑ t, Ideal.exp (∑ d, (q d * c) * k t d))

/-- The scale after the dot product; the shift `mx` under the exponential; the sum started at `z`. -/
def scoreR {D S : ℕ} (sc mx z : EReal) (q : Fin D → EReal) (k : Fin S → Fin D → EReal) (s : Fin S) : EReal :=
  Ideal.div (Ideal.exp ((∑ d, q d * k s d) * sc - mx)) (z + ∑ t, Ideal.exp ((∑ d, q d * k t d) * sc - mx))

end Cert.Attn

end
-- ==== Proof.Spec.lean ====
/-
  The specification: attention scores and attention output as whole-array functions of the query, key and value
  arrays, index by index, over the extended reals.

  For one batch-and-head, row `l` of the scores is the softmax row of the logits `∑ d, (q l d · c) · k s d` over the
  keys `s` — the scale `c` (one eighth, the reciprocal of the square root of the head dimension 64) folded into the
  query, the exponentials normalised by their plain sum (`Cert.Attn.scoreK`) — and entry `(l, d)` of the output is
  `∑ t, score l t · v t d`. The same functions are stated twice: over arrays [64, 2048, 64] with batch and head merged
  into one axis of 64 (`row3`, `scores3`, `out3`: what the kernel's grid works on), and over arrays
  [4, 16, 2048, 64] (`row4`, `scores4`, `out4`: what the two programs take and return).
-/
import proofs.«115952_j87196426043406_2_alg».proof.Proof.Row
import Idealize.ShloMosaic.Lib.ValueIdx

noncomputable section

namespace Cert.Attn

open Idealize.ShloMosaic Idealize.ShloMosaic.ValueIdx

/-- The scale, as the extended real its float pattern denotes: one eighth. -/
abbrev cK : EReal := Ideal.ofBits .f32 0x3E000000#32

/-! ## Batch and head merged: arrays [64, 2048, 64] -/

/-- Score `(l, s)` of batch-and-head `g`. -/
def row3 (A0 A1 : (⟨3, ![64, 2048, 64]⟩ : Shape).Idx → EReal) (g : Fin 64) (l s : Fin 2048) : EReal :=
  scoreK cK (fun d : Fin 64 => A0 (ix3 g l d)) (fun (t : Fin 2048) (d : Fin 64) => A1 (ix3 g t d)) s

/-- The scores array [64, 2048, 2048]. -/
def scores3 (A0 A1 : (⟨3, ![64, 2048, 64]⟩ : Shape).Idx → EReal) : (⟨3, ![64, 2048, 2048]⟩ : Shape).Idx → EReal :=
  fun i => row3 A0 A1 (i 0) (i 1) (i 2)

/-- The output array [64, 2048, 64]. -/
def out3 (A0 A1 A2 : (⟨3, ![64, 2048, 64]⟩ : Shape).Idx → EReal) : (⟨3, ![64, 2048, 64]⟩ : Shape).Idx → EReal :=
  fun i => ∑ t : Fin 2048, row3 A0 A1 (i 0) (i 1) t * A2 (ix3 (i 0) t (i 2))

theorem scores3_apply (A0 A1 : (⟨3, ![64, 2048, 64]⟩ : Shape).Idx → EReal) (g : Fin 64) (l s : Fin 2048) :
    scores3 A0 A1 (ix3 g l s) = row3 A0 A1 g l s := rfl

theorem out3_apply (A0 A1 A2 : (⟨3, ![64, 2048, 64]⟩ : Shape).Idx → EReal) (g : Fin 64) (l : Fin 2048) (d : Fin 64) :
    out3 A0 A1 A2 (ix3 g l d) = ∑ t : Fin 2048, row3 A0 A1 g l t * A2 (ix3 g t d) := rfl

/-! ## Batch and head apart: arrays [4, 16, 2048, 64] -/

/-- Score `(l, s)` of batch `b`, head `h`. -/
def row4 (x0 x1 : (⟨4, ![4, 16, 2048, 64]⟩ : Shape).Idx → EReal) (b : Fin 4) (h : Fin 16) (l s : Fin 2048) : EReal :=
  scoreK cK (fun d : Fin 64 => x0 (ix4 b h l d)) (fun (t : Fin 2048) (d : Fin 64) => x1 (ix4 b h t d)) s

/-- The scores array [4, 16, 2048, 2048]. -/
def scores4 (x0 x1 : (⟨4, ![4, 16, 2048, 64]⟩ : Shape).Idx → EReal) : (⟨4, ![4, 16, 2048, 2048]⟩ : Shape).Idx → EReal :=
  fun i => row4 x0 x1 (i 0) (i 1) (i 2) (i 3)

/-- The output array [4, 16, 2048, 64]. -/
def out4 (x0 x1 x2 : (⟨4, ![4, 16, 2048, 64]⟩ : Shape).Idx → EReal) : (⟨4, ![4, 16, 2048, 64]⟩ : Shape).Idx → EReal :=
  fun i => ∑ t : Fin 2048, row4 x0 x1 (i 0) (i 1) (i 2) t * x2 (ix4 (i 0) (i 1) t (i 3))

theorem scores4_apply (x0 x1 : (⟨4, ![4, 16, 2048, 64]⟩ : Shape).Idx → EReal) (b : Fin 4) (h : Fin 16) (l s : Fin 2048) :
    scores4 x0 x1 (ix4 b h l s) = row4 x0 x1 b h l s := rfl

theorem out4_apply (x0 x1 x2 : (⟨4, ![4, 16, 2048, 64]⟩ : Shape).Idx → EReal) (b : Fin 4) (h : Fin 16) (l : Fin 2048) (d : Fin 64) :
    out4 x0 x1 x2 (ix4 b h l d) = ∑ t : Fin 2048, row4 x0 x1 b h l t * x2 (ix4 b h t d) := rfl

end Cert.Attn

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.Payload.lean ====
/-
  The kernel body's three stored values, read at one index.

  For a query block `x0` of 512 rows, a key block `x1` and a value block `x2` of 2048 rows each (64 columns), over the
  extended reals:
  • the logits: entry `(p, s)` of the product of the scaled query block with the transposed key block is
    `∑ d, (x0 p d · c) · x1 s d`, `c` the scale's constant — a matrix product into a zero accumulator is the plain sum
    over the contracted axis, and a change of float format is the identity;
  • the scores: entry `(p, s)` is `exp` of that logit divided by the sum over the row `p` of the exponentials — the
    row sum kept as a column and spread back along the row reads, at `(p, s)`, the sum of row `p`: this is
    `Cert.Attn.scoreK` of row `p` of the query block and of the key block;
  • the output: entry `(p, d)` of the product of the scores with the value block is `∑ t, score p t · x2 t d`.
  The blocks carry a leading unit axis, dropped on the way in and put back on the way out.
-/
import proofs.«115952_j87196426043406_2_alg».proof.Proof.Gen.KernelIdeal.Skeleton
import proofs.«115952_j87196426043406_2_alg».proof.Proof.Spec
import proofs.«115952_j87196426043406_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Payload

open Idealize.ShloMosaic Idealize.ShloMosaic.ValueIdx
open Cert.KernelIdeal Cert.KernelIdeal.Gen
open Cert.Lib.Keepdims Cert.Attn

/-- The first product's dimension numbers: both operands contract their column axis. -/
abbrev D1 : DotDims S512x64 S2048x64 S512x2048 := dot_S512x64_S2048x64_S512x2048_1_1_0_0_n_n
/-- The second product's: scores' columns against the value block's rows. -/
abbrev D2 : DotDims S512x2048 S2048x64 S512x64 := dot_S512x2048_S2048x64_S512x64_1_0_0_1_n_n

/-! ## The two products' operand indices

An output index `(p, s)` of the first product reads the left operand at `(p, k)` and the right at `(s, k)`; an output
index `(p, d)` of the second reads the left at `(p, k)` and the right at `(k, d)`: `k` the contracted coordinate. -/

theorem D1_lhs_0 (j : S512x2048.Idx) (q : D1.contr.Idx) : (D1.lhsIdx j q 0).val = (j 0).val := by
  unfold DotDims.lhsIdx
  rw [dif_neg (show ¬(0 : Fin S512x64.rank) ∈ D1.lhsBatch by decide), dif_pos (show (0 : Fin S512x64.rank) ∈ D1.lhsNonContracting by decide)]
  rfl
theorem D1_lhs_1 (j : S512x2048.Idx) (q : D1.contr.Idx) : (D1.lhsIdx j q 1).val = (q ⟨0, by decide⟩).val :=
  D1.lhsIdx_val_of_single rfl j q
theorem D1_rhs_0 (j : S512x2048.Idx) (q : D1.contr.Idx) : (D1.rhsIdx j q 0).val = (j 1).val := by
  unfold DotDims.rhsIdx
  rw [dif_neg (show ¬(0 : Fin S2048x64.rank) ∈ D1.rhsBatch by decide), dif_pos (show (0 : Fin S2048x64.rank) ∈ D1.rhsNonContracting by decide)]
  rfl
theorem D1_rhs_1 (j : S512x2048.Idx) (q : D1.contr.Idx) : (D1.rhsIdx j q 1).val = (q ⟨0, by decide⟩).val :=
  D1.rhsIdx_val_of_single rfl j q

theorem D2_lhs_0 (j : S512x64.Idx) (q : D2.contr.Idx) : (D2.lhsIdx j q 0).val = (j 0).val := by
  unfold DotDims.lhsIdx
  rw [dif_neg (show ¬(0 : Fin S512x2048.rank) ∈ D2.lhsBatch by decide), dif_pos (show (0 : Fin S512x2048.rank) ∈ D2.lhsNonContracting by decide)]
  rfl
theorem D2_lhs_1 (j : S512x64.Idx) (q : D2.contr.Idx) : (D2.lhsIdx j q 1).val = (q ⟨0, by decide⟩).val :=
  D2.lhsIdx_val_of_single rfl j q
theorem D2_rhs_0 (j : S512x64.Idx) (q : D2.contr.Idx) : (D2.rhsIdx j q 0).val = (q ⟨0, by decide⟩).val :=
  D2.rhsIdx_val_of_single rfl j q
theorem D2_rhs_1 (j : S512x64.Idx) (q : D2.contr.Idx) : (D2.rhsIdx j q 1).val = (j 1).val := by
  unfold DotDims.rhsIdx
  rw [dif_neg (show ¬(1 : Fin S2048x64.rank) ∈ D2.rhsBatch by decide), dif_pos (show (1 : Fin S2048x64.rank) ∈ D2.rhsNonContracting by decide)]
  rfl

theorem D1_lhs (p : Fin 512) (s : Fin 2048) (k : Fin 64) :
    D1.lhsIdx (ix2 p s) ((contrEquiv1 D1 64 rfl rfl).symm k) = ix2 p k := funext fun a => Fin.ext (by
  have hk := contrEquiv1_symm_val D1 64 rfl rfl k
  match a with
  | ⟨0, _⟩ => exact D1_lhs_0 _ _
  | ⟨1, _⟩ => exact (D1_lhs_1 _ _).trans hk)

theorem D1_rhs (p : Fin 512) (s : Fin 2048) (k : Fin 64) :
    D1.rhsIdx (ix2 p s) ((contrEquiv1 D1 64 rfl rfl).symm k) = ix2 s k := funext fun a => Fin.ext (by
  have hk := contrEquiv1_symm_val D1 64 rfl rfl k
  match a with
  | ⟨0, _⟩ => exact D1_rhs_0 _ _
  | ⟨1, _⟩ => exact (D1_rhs_1 _ _).trans hk)

theorem D2_lhs (p : Fin 512) (d : Fin 64) (k : Fin 2048) :
    D2.lhsIdx (ix2 p d) ((contrEquiv1 D2 2048 rfl rfl).symm k) = ix2 p k := funext fun a => Fin.ext (by
  have hk := contrEquiv1_symm_val D2 2048 rfl rfl k
  match a with
  | ⟨0, _⟩ => exact D2_lhs_0 _ _
  | ⟨1, _⟩ => exact (D2_lhs_1 _ _).trans hk)

theorem D2_rhs (p : Fin 512) (d : Fin 64) (k : Fin 2048) :
    D2.rhsIdx (ix2 p d) ((contrEquiv1 D2 2048 rfl rfl).symm k) = ix2 k d := funext fun a => Fin.ext (by
  have hk := contrEquiv1_symm_val D2 2048 rfl rfl k
  match a with
  | ⟨0, _⟩ => exact (D2_rhs_0 _ _).trans hk
  | ⟨1, _⟩ => exact D2_rhs_1 _ _)

/-! ## The logits -/

/-- The scaled query block times the transposed key block, at `(p, s)`. -/
theorem logit_apply (x0 : Vec Ideal S1x512x64 .f32) (x1 : Vec Ideal S1x2048x64 .f32) (p : Fin 512) (s : Fin 2048) :
    matmul (F := Ideal) D1 none
        (truncf .bf16 (mulf (shapeCast S512x64 x0 Facts₀.shapeCasts_S1x512x64_S512x64) (broadcast S512x64 (Scalar.ofBits (F := Ideal) .f32 0x3E000000#32))) Facts₀.bitsLt_bf16_f32)
        (truncf .bf16 (shapeCast S2048x64 x1 Facts₀.shapeCasts_S1x2048x64_S2048x64) Facts₀.bitsLt_bf16_f32)
        (constant S512x2048 .f32 0x00000000#32) (ix2 p s)
      = ∑ d : Fin 64, (x0 (ix3 (0 : Fin 1) p d) * cK) * x1 (ix3 (0 : Fin 1) s d) := by
  refine (Ideal.matmul_constant_zero_apply D1 none _ _ (ix2 p s)).trans ?_
  rw [← Equiv.sum_comp (contrEquiv1 D1 64 rfl rfl).symm]
  refine Finset.sum_congr rfl fun k _ => ?_
  rw [D1_lhs, D1_rhs]
  show (shapeCast S512x64 x0 Facts₀.shapeCasts_S1x512x64_S512x64 (ix2 p k) * cK) * shapeCast S2048x64 x1 Facts₀.shapeCasts_S1x2048x64_S2048x64 (ix2 s k) = _
  rw [shapeCast_1ab_ab_apply, shapeCast_1ab_ab_apply]

/-! ## The scores -/

/-- The body's scores at `(p, s)`: row `p` of the query block against the key block, the scale folded into the query. -/
theorem pay1_apply (x0 : Vec Ideal S1x512x64 .f32) (x1 : Vec Ideal S1x2048x64 .f32) (p : Fin 512) (s : Fin 2048) :
    k0_pay1 (F := Ideal) x0 x1 (ix2 p s)
      = Cert.Attn.scoreK cK (fun d : Fin 64 => x0 (ix3 (0 : Fin 1) p d)) (fun (t : Fin 2048) (d : Fin 64) => x1 (ix3 (0 : Fin 1) t d)) s := by
  unfold k0_pay1 Cert.Attn.scoreK
  dsimp only
  refine congrArg₂ Ideal.div ?_ ?_
  · exact congrArg Ideal.exp (logit_apply x0 x1 p s)
  · refine (broadcastTo_a1_ab_apply _ _ p s).trans ?_
    refine (shapeCast_a_a1_apply _ _ p (0 : Fin 1)).trans ?_
    refine (laneSum_apply _ _ _ _ _ p).trans ?_
    exact Finset.sum_congr rfl fun t _ => congrArg Ideal.exp (logit_apply x0 x1 p t)

/-- The same under the leading unit axis the stored block carries. -/
theorem pay2_apply (x0 : Vec Ideal S1x512x64 .f32) (x1 : Vec Ideal S1x2048x64 .f32) (u : Fin 1) (p : Fin 512) (s : Fin 2048) :
    k0_pay2 (F := Ideal) x0 x1 (ix3 u p s)
      = Cert.Attn.scoreK cK (fun d : Fin 64 => x0 (ix3 (0 : Fin 1) p d)) (fun (t : Fin 2048) (d : Fin 64) => x1 (ix3 (0 : Fin 1) t d)) s := by
  unfold k0_pay2
  exact (shapeCast_ab_1ab_apply _ _ u p s).trans (pay1_apply x0 x1 p s)

/-! ## The output -/

/-- The body's output at `(p, d)`: the scores of row `p` against column `d` of the value block. -/
theorem pay3_apply (x0 : Vec Ideal S1x512x64 .f32) (x1 x2 : Vec Ideal S1x2048x64 .f32) (u : Fin 1) (p : Fin 512) (d : Fin 64) :
    k0_pay3 (F := Ideal) x0 x1 x2 (ix3 u p d)
      = ∑ t : Fin 2048, Cert.Attn.scoreK cK (fun e : Fin 64 => x0 (ix3 (0 : Fin 1) p e)) (fun (r : Fin 2048) (e : Fin 64) => x1 (ix3 (0 : Fin 1) r e)) t
          * x2 (ix3 (0 : Fin 1) t d) := by
  unfold k0_pay3
  refine (shapeCast_ab_1ab_apply _ _ u p d).trans ?_
  refine (Ideal.matmul_constant_zero_apply D2 none _ _ (ix2 p d)).trans ?_
  rw [← Equiv.sum_comp (contrEquiv1 D2 2048 rfl rfl).symm]
  refine Finset.sum_congr rfl fun k _ => ?_
  rw [D2_lhs, D2_rhs]
  show k0_pay1 (F := Ideal) x0 x1 (ix2 p k) * shapeCast S2048x64 x2 Facts₀.shapeCasts_S1x2048x64_S2048x64 (ix2 k d) = _
  rw [pay1_apply, shapeCast_1ab_ab_apply]

end Cert.Attn.Payload

end
-- ==== Proof.Region.lean ====
/-
  The two result arrays of the kernel's region, as whole-array functions of the arrays it was launched on.

  The grid has 64 × 4 points: point `t` works on batch-and-head `g = t / 4` and on the block of 512 query rows
  `l = (t mod 4) · 512 + p`, `p < 512`. At that point the query window holds rows `l` of slice `g` of the query array,
  the key and value windows hold the whole slice `g`, and the two output windows are written back to rows `l` of
  slice `g` of the output and of the scores array. So what point `t` writes back is the block at `t` of ONE function of
  the three arrays — `Cert.Attn.scores3`, `Cert.Attn.out3` — and, the blocks of the 256 points covering each result
  array (row `r` of slice `g` is written at point `4 g + r / 512`), the arrays end holding those functions.
-/
import proofs.«115952_j87196426043406_2_alg».proof.Proof.Gen.KernelIdeal.Frame
import proofs.«115952_j87196426043406_2_alg».proof.Proof.Payload
import proofs.«115952_j87196426043406_2_alg».proof.Proof.Spec
import Idealize.ShloMosaic.Lib.Pipeline.Value
import Idealize.ShloMosaic.Lib.ValueIdx

noncomputable section

namespace Cert.Attn.Region

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ)

theorem hz : (![0, 0, 0] : Fin 3 → Nat) = fun _ => 0 := funext fun a => by fin_cases a <;> rfl

/-! ## The grid -/

/-- Every window's block index at point `t`, in closed form: decided over the 256 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-- The batch-and-head slice point `t` works on. -/
abbrev gAt (t : Fin cfg0.N) : Fin 64 := ⟨t.val / 4, by have h := t.isLt; have hN : cfg0.N = 256 := N_0; omega⟩
/-- Row `p` of point `t`'s block of query rows. -/
abbrev lAt (t : Fin cfg0.N) (p : Fin 512) : Fin 2048 := ⟨t.val % 4 * 512 + p.val, by omega⟩

/-! ## The input windows' blocks -/

/-- The query window's block at point `t` is rows `lAt t p` of slice `gAt t`. -/
theorem iblk0_apply (c : Dev nD) (t : Fin cfg0.N) (u : Fin 1) (p : Fin 512) (d : Fin 64) :
    (iblk m c 0 t : Vec Ideal S1x512x64 .f32) (ix3 u p d) = (V m c main_v0 : S64x2048x64.Idx → EReal) (ix3 (gAt t) (lAt t p) d) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * u.val = t.val / 4; rw [e0]; omega
  | ⟨1, _⟩ => show win0_0.index t (1 : Fin 3) * 512 + 1 * p.val = t.val % 4 * 512 + p.val; rw [e1]; omega
  | ⟨2, _⟩ => show win0_0.index t (2 : Fin 3) * 64 + 1 * d.val = d.val; rw [e2]; omega

/-- The key window's block at point `t` is the whole slice `gAt t`. -/
theorem iblk1_apply (c : Dev nD) (t : Fin cfg0.N) (u : Fin 1) (s : Fin 2048) (d : Fin 64) :
    (iblk m c 1 t : Vec Ideal S1x2048x64 .f32) (ix3 u s d) = (V m c main_v1 : S64x2048x64.Idx → EReal) (ix3 (gAt t) s d) := by
  obtain ⟨-, -, -, e0, e1, e2, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 3) * 1 + 1 * u.val = t.val / 4; rw [e0]; omega
  | ⟨1, _⟩ => show win0_1.index t (1 : Fin 3) * 2048 + 1 * s.val = s.val; rw [e1]; omega
  | ⟨2, _⟩ => show win0_1.index t (2 : Fin 3) * 64 + 1 * d.val = d.val; rw [e2]; omega

/-- The value window's block at point `t` is the whole slice `gAt t`. -/
theorem iblk2_apply (c : Dev nD) (t : Fin cfg0.N) (u : Fin 1) (s : Fin 2048) (d : Fin 64) :
    (iblk m c 2 t : Vec Ideal S1x2048x64 .f32) (ix3 u s d) = (V m c main_v2 : S64x2048x64.Idx → EReal) (ix3 (gAt t) s d) := by
  obtain ⟨-, -, -, -, -, -, e0, e1, e2, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 3) * 1 + 1 * u.val = t.val / 4; rw [e0]; omega
  | ⟨1, _⟩ => show win0_2.index t (1 : Fin 3) * 2048 + 1 * s.val = s.val; rw [e1]; omega
  | ⟨2, _⟩ => show win0_2.index t (2 : Fin 3) * 64 + 1 * d.val = d.val; rw [e2]; omega

/-! ## The output windows' blocks -/

/-- Entry `(u, p, s)` of the scores window's block at point `t` sits at `(gAt t, lAt t p, s)` of the scores array. -/
theorem emb4 (t : Fin cfg0.N) (u : Fin 1) (p : Fin 512) (s : Fin 2048) :
    ((cfg0.win 4).blk t).view.emb (ix3 u p s) = (ix3 (gAt t) (lAt t p) s : S64x2048x2048.Idx) := funext fun a => Fin.ext (by
  obtain ⟨-, -, -, -, -, -, -, -, -, -, -, -, e0, e1, e2⟩ := idx_facts t
  match a with
  | ⟨0, _⟩ => show win0_4.index t (0 : Fin 3) * 1 + 1 * u.val = t.val / 4; rw [e0]; omega
  | ⟨1, _⟩ => show win0_4.index t (1 : Fin 3) * 512 + 1 * p.val = t.val % 4 * 512 + p.val; rw [e1]; omega
  | ⟨2, _⟩ => show win0_4.index t (2 : Fin 3) * 2048 + 1 * s.val = s.val; rw [e2]; omega)

/-- Entry `(u, p, d)` of the output window's block at point `t` sits at `(gAt t, lAt t p, d)` of the output array. -/
theorem emb3 (t : Fin cfg0.N) (u : Fin 1) (p : Fin 512) (d : Fin 64) :
    ((cfg0.win 3).blk t).view.emb (ix3 u p d) = (ix3 (gAt t) (lAt t p) d : S64x2048x64.Idx) := funext fun a => Fin.ext (by
  obtain ⟨-, -, -, -, -, -, -, -, -, e0, e1, e2, -⟩ := idx_facts t
  match a with
  | ⟨0, _⟩ => show win0_3.index t (0 : Fin 3) * 1 + 1 * u.val = t.val / 4; rw [e0]; omega
  | ⟨1, _⟩ => show win0_3.index t (1 : Fin 3) * 512 + 1 * p.val = t.val % 4 * 512 + p.val; rw [e1]; omega
  | ⟨2, _⟩ => show win0_3.index t (2 : Fin 3) * 64 + 1 * d.val = d.val; rw [e2]; omega)

/-! ## What each point writes back -/

/-- Point `t` writes back block `t` of the scores of the query and key arrays. -/
theorem flushed4_eq (c : Dev nD) (t : Fin cfg0.N) :
    (dats m 0 c).flushed 4 t = ((cfg0.win 4).blk t).view.read (Elt Ideal) (scores3 (V m c main_v0) (V m c main_v1)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz]
  funext j
  obtain ⟨u, p, s, rfl⟩ : ∃ (u : Fin 1) (p : Fin 512) (s : Fin 2048), j = ix3 u p s := ⟨j 0, j 1, j 2, eq_ix3 j⟩
  show k0_pay2 (F := Ideal) (iblk m c 0 t) (iblk m c 1 t) (ix3 u p s)
    = scores3 (V m c main_v0) (V m c main_v1) (((cfg0.win 4).blk t).view.emb (ix3 u p s))
  rw [emb4 t u p s, scores3_apply]
  refine (Payload.pay2_apply (iblk m c 0 t) (iblk m c 1 t) u p s).trans ?_
  unfold row3
  exact congrArg₂ (fun q k => scoreK cK q k s) (funext fun d => iblk0_apply m c t 0 p d)
    (funext fun r => funext fun d => iblk1_apply m c t 0 r d)

/-- Point `t` writes back block `t` of the attention output of the three arrays. -/
theorem flushed3_eq (c : Dev nD) (t : Fin cfg0.N) :
    (dats m 0 c).flushed 3 t
      = ((cfg0.win 3).blk t).view.read (Elt Ideal) (out3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  funext j
  obtain ⟨u, p, d, rfl⟩ : ∃ (u : Fin 1) (p : Fin 512) (d : Fin 64), j = ix3 u p d := ⟨j 0, j 1, j 2, eq_ix3 j⟩
  show k0_pay3 (F := Ideal) (iblk m c 0 t) (iblk m c 1 t) (iblk m c 2 t) (ix3 u p d)
    = out3 (V m c main_v0) (V m c main_v1) (V m c main_v2) (((cfg0.win 3).blk t).view.emb (ix3 u p d))
  rw [emb3 t u p d, out3_apply]
  refine (Payload.pay3_apply (iblk m c 0 t) (iblk m c 1 t) (iblk m c 2 t) u p d).trans ?_
  refine Finset.sum_congr rfl fun r _ => ?_
  unfold row3
  exact congrArg₂ (· * ·)
    (congrArg₂ (fun q k => scoreK cK q k r) (funext fun e => iblk0_apply m c t 0 p e)
      (funext fun r' => funext fun e => iblk1_apply m c t 0 r' e))
    (iblk2_apply m c t 0 r d)

/-! ## The cover -/

theorem mem_blk4 (t : Fin cfg0.N) (i : S64x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v3_1).slice (win0_4.rect t)).set ↔ _
  rw [View.set_slice_whole, Rect.mem_set_unit]
  exact Iff.rfl

theorem mem_blk3 (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3_0).slice (win0_3.rect t)).set ↔ _
  rw [View.set_slice_whole, Rect.mem_set_unit]
  exact Iff.rfl

/-- Every entry of the scores array is in the block of the point `4 g + r / 512`. -/
theorem cover4 (i : S64x2048x2048.Idx) : ∃ t : Fin cfg0.N, (cfg0.win 4).flush t = true ∧ i ∈ ((cfg0.win 4).blk t).view.set := by
  have hN : cfg0.N = 256 := N_0
  have h0 : (i 0).val < 64 := (i 0).isLt
  have h1 : (i 1).val < 2048 := (i 1).isLt
  have h2 : (i 2).val < 2048 := (i 2).isLt
  obtain ⟨t, ht⟩ : ∃ t : Fin cfg0.N, t.val = (i 0).val * 4 + (i 1).val / 512 := ⟨⟨(i 0).val * 4 + (i 1).val / 512, by omega⟩, rfl⟩
  obtain ⟨-, -, -, -, -, -, -, -, -, -, -, -, e0, e1, e2⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 512 ≤ (i 1).val ∧ (i 1).val < win0_4.index t (1 : Fin 3) * 512 + 512
    rw [e1, ht]; omega
  | ⟨2, _⟩ =>
    show win0_4.index t (2 : Fin 3) * 2048 ≤ (i 2).val ∧ (i 2).val < win0_4.index t (2 : Fin 3) * 2048 + 2048
    rw [e2]; omega

/-- Every entry of the output array is in the block of the point `4 g + r / 512`. -/
theorem cover3 (i : S64x2048x64.Idx) : ∃ t : Fin cfg0.N, (cfg0.win 3).flush t = true ∧ i ∈ ((cfg0.win 3).blk t).view.set := by
  have hN : cfg0.N = 256 := N_0
  have h0 : (i 0).val < 64 := (i 0).isLt
  have h1 : (i 1).val < 2048 := (i 1).isLt
  have h2 : (i 2).val < 64 := (i 2).isLt
  obtain ⟨t, ht⟩ : ∃ t : Fin cfg0.N, t.val = (i 0).val * 4 + (i 1).val / 512 := ⟨⟨(i 0).val * 4 + (i 1).val / 512, by omega⟩, rfl⟩
  obtain ⟨-, -, -, -, -, -, -, -, -, e0, e1, e2, -⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 512 ≤ (i 1).val ∧ (i 1).val < win0_3.index t (1 : Fin 3) * 512 + 512
    rw [e1, ht]; omega
  | ⟨2, _⟩ =>
    show win0_3.index t (2 : Fin 3) * 64 ≤ (i 2).val ∧ (i 2).val < win0_3.index t (2 : Fin 3) * 64 + 64
    rw [e2]; omega

/-! ## The arrays after the region -/

/-- The scores array after the region. -/
theorem final4 (c : Dev nD) : (dats m 0 c).arrAt 4 cfg0.N = scores3 (V m c main_v0) (V m c main_v1) :=
  (dats m 0 c).arrAt_eq_of_cover 4 (scores3 (V m c main_v0) (V m c main_v1)) (fun t _ => flushed4_eq m c t) cover4

/-- The output array after the region. -/
theorem final3 (c : Dev nD) : (dats m 0 c).arrAt 3 cfg0.N = out3 (V m c main_v0) (V m c main_v1) (V m c main_v2) :=
  (dats m 0 c).arrAt_eq_of_cover 3 (out3 (V m c main_v0) (V m c main_v1) (V m c main_v2)) (fun t _ => flushed3_eq m c t) cover3

end Cert.Attn.Region

end
-- ==== Proof.HostSide.lean ====
/-
  The host operations around the region. Before the region the program reshapes each [4, 16, 2048, 64] argument to
  [64, 2048, 64]; the region works on the merged arrays and writes two result arrays, [64, 2048, 64] and
  [64, 2048, 2048]; after it the program reshapes the two results back to [4, 16, 2048, 64] and [4, 16, 2048, 2048].
  So each array the region reads is the reshape of an argument as launched, and each array the program returns is the
  reshape of what the region left in the corresponding result array.
-/
import proofs.«115952_j87196426043406_2_alg».proof.Proof.Gen.KernelIdeal.Frame
import Idealize.ShloMosaic.Lib.StableHlo.Run
import Idealize.ShloMosaic.Lib.Pipeline.Value
import Idealize.ShloMosaic.PureOps.Ideal

set_option maxRecDepth 16384

noncomputable section

namespace Cert.Attn.HostSide

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ)

/-- The first merged array the region reads is the reshape of the first argument as launched. -/
theorem V_main_v0 (c : Dev nD) : (V m c main_v0 : S64x2048x64.Idx → EReal)
    = shapeCast S64x2048x64 (m ((c : Thread nD τ).loc main_arg0) : S4x16x2048x64.Idx → EReal) Facts₀.shapeCasts_S4x16x2048x64_S64x2048x64 := by
  show StableHlo.after hostOps0 (fun b => m (c, b)) (Proc.devRef .tc main_v0) = _
  after_results
  rfl

/-- The second merged array the region reads is the reshape of the second argument as launched. -/
theorem V_main_v1 (c : Dev nD) : (V m c main_v1 : S64x2048x64.Idx → EReal)
    = shapeCast S64x2048x64 (m ((c : Thread nD τ).loc main_arg1) : S4x16x2048x64.Idx → EReal) Facts₀.shapeCasts_S4x16x2048x64_S64x2048x64 := by
  show StableHlo.after hostOps0 (fun b => m (c, b)) (Proc.devRef .tc main_v1) = _
  after_results
  rfl

/-- The third merged array the region reads is the reshape of the third argument as launched. -/
theorem V_main_v2 (c : Dev nD) : (V m c main_v2 : S64x2048x64.Idx → EReal)
    = shapeCast S64x2048x64 (m ((c : Thread nD τ).loc main_arg2) : S4x16x2048x64.Idx → EReal) Facts₀.shapeCasts_S4x16x2048x64_S64x2048x64 := by
  show StableHlo.after hostOps0 (fun b => m (c, b)) (Proc.devRef .tc main_v2) = _
  after_results
  rfl

/-- The first returned array is the reshape of what the region left in its first result array. -/
theorem tail_v4 (c : Dev nD) : (Pipeline.afterTail₀ cfgs (dats m) 0 (V0 m) [hostOps1] c main_v4 : S4x16x2048x64.Idx → EReal)
    = shapeCast S4x16x2048x64 ((dats m 0 c).arrAt 3 cfg0.N : S64x2048x64.Idx → EReal) Facts₀.shapeCasts_S64x2048x64_S4x16x2048x64 := by
  have e := Pipeline.withArrays_arr spec0 launch0.win.arr_inj c (V0 m c) (fun w => (dats m 0 c).arrAt w cfg0.N) (3 : Fin 5)
  unfold Pipeline.afterTail₀
  show StableHlo.after hostOps1 _ (Proc.devRef .tc main_v4) = _
  after_results
  exact congrArg (fun A : S64x2048x64.Idx → EReal => shapeCast S4x16x2048x64 A Facts₀.shapeCasts_S64x2048x64_S4x16x2048x64) e

/-- The second returned array is the reshape of what the region left in its second result array. -/
theorem tail_v5 (c : Dev nD) : (Pipeline.afterTail₀ cfgs (dats m) 0 (V0 m) [hostOps1] c main_v5 : S4x16x2048x2048.Idx → EReal)
    = shapeCast S4x16x2048x2048 ((dats m 0 c).arrAt 4 cfg0.N : S64x2048x2048.Idx → EReal) Facts₀.shapeCasts_S64x2048x2048_S4x16x2048x2048 := by
  have e := Pipeline.withArrays_arr spec0 launch0.win.arr_inj c (V0 m c) (fun w => (dats m 0 c).arrAt w cfg0.N) (4 : Fin 5)
  unfold Pipeline.afterTail₀
  show StableHlo.after hostOps1 _ (Proc.devRef .tc main_v5) = _
  after_results
  exact congrArg (fun A : S64x2048x2048.Idx → EReal => shapeCast S4x16x2048x2048 A Facts₀.shapeCasts_S64x2048x2048_S4x16x2048x2048) e

end Cert.Attn.HostSide

end
-- ==== Proof.Merge.lean ====
/-
  The reshape bridge. A [4, 16, 2048, n] array and a [64, 2048, n] array with the same row-major contents are one
  array indexed two ways: position (b, h, l, d) of the first is position (16·b + h, l, d) of the second, because both
  sit at row-major offset ((16·b + h)·2048 + l)·n + d. Hence the attention scores and the attention output computed
  on the merged arrays and reshaped back are the scores and output computed with batch and head apart.
-/
import proofs.«115952_j87196426043406_2_alg».proof.Proof.Spec
import Idealize.ShloMosaic.Lib.Pipeline.Value
import Idealize.ShloMosaic.Lib.ValueIdx
import Idealize.ShloMosaic.Lib.ValueLayout

noncomputable section

namespace Cert.Attn.Merge

open Idealize.ShloMosaic Idealize.ShloMosaic.ValueIdx Cert.Attn

/-- the merged batch-and-head coordinate -/
abbrev gOf (b : Fin 4) (h : Fin 16) : Fin 64 := ⟨b.val * 16 + h.val, by omega⟩

/-- Merging batch and head: the [64, 2048, n] array reads at (16·b + h, l, d) what the [4, 16, 2048, n] array holds
    at (b, h, l, d); both indices have row-major offset ((16·b + h)·2048 + l)·n + d. -/
theorem merge_apply {n : ℕ} {α : Type} (x : (⟨4, ![4, 16, 2048, n]⟩ : Shape).Idx → α)
    (hc : (⟨4, ![4, 16, 2048, n]⟩ : Shape).ShapeCasts ⟨3, ![64, 2048, n]⟩) (b : Fin 4) (h : Fin 16) (l : Fin 2048) (d : Fin n) :
    shapeCast ⟨3, ![64, 2048, n]⟩ x hc (ix3 (gOf b h) l d) = x (ix4 b h l d) :=
  shapeCast_apply x hc _ _ (by
    rw [Shape.rowMajor_val_four, Shape.rowMajor_val_three]
    show ((b.val * 16 + h.val) * 2048 + l.val) * n + d.val = ((b.val * 16 + h.val) * 2048 + l.val) * n + d.val
    rfl)

/-- Splitting batch and head: the [4, 16, 2048, n] array reads at (b, h, l, d) what the [64, 2048, n] array holds at
    (16·b + h, l, d). -/
theorem split_apply {n : ℕ} {α : Type} (y : (⟨3, ![64, 2048, n]⟩ : Shape).Idx → α)
    (hc : (⟨3, ![64, 2048, n]⟩ : Shape).ShapeCasts ⟨4, ![4, 16, 2048, n]⟩) (b : Fin 4) (h : Fin 16) (l : Fin 2048) (d : Fin n) :
    shapeCast ⟨4, ![4, 16, 2048, n]⟩ y hc (ix4 b h l d) = y (ix3 (gOf b h) l d) :=
  shapeCast_apply y hc _ _ (by
    rw [Shape.rowMajor_val_four, Shape.rowMajor_val_three]
    show ((b.val * 16 + h.val) * 2048 + l.val) * n + d.val = ((b.val * 16 + h.val) * 2048 + l.val) * n + d.val
    rfl)

/-- A score row of the merged arrays at batch-and-head 16·b + h is the score row of batch b, head h: the query row and
    the key rows it is computed from are the same entries. -/
theorem row_merge (x0 x1 : (⟨4, ![4, 16, 2048, 64]⟩ : Shape).Idx → EReal)
    (h43 : (⟨4, ![4, 16, 2048, 64]⟩ : Shape).ShapeCasts ⟨3, ![64, 2048, 64]⟩) (b : Fin 4) (h : Fin 16) (l s : Fin 2048) :
    row3 (shapeCast ⟨3, ![64, 2048, 64]⟩ x0 h43) (shapeCast ⟨3, ![64, 2048, 64]⟩ x1 h43) (gOf b h) l s = row4 x0 x1 b h l s := by
  unfold row3 row4
  simp only [merge_apply]

theorem scores_merge (x0 x1 : (⟨4, ![4, 16, 2048, 64]⟩ : Shape).Idx → EReal)
    (h43 : (⟨4, ![4, 16, 2048, 64]⟩ : Shape).ShapeCasts ⟨3, ![64, 2048, 64]⟩)
    (h34 : (⟨3, ![64, 2048, 2048]⟩ : Shape).ShapeCasts ⟨4, ![4, 16, 2048, 2048]⟩) :
    shapeCast ⟨4, ![4, 16, 2048, 2048]⟩ (scores3 (shapeCast ⟨3, ![64, 2048, 64]⟩ x0 h43) (shapeCast ⟨3, ![64, 2048, 64]⟩ x1 h43)) h34 = scores4 x0 x1 := by
  funext i
  obtain ⟨b, h, l, s, rfl⟩ : ∃ (b : Fin 4) (h : Fin 16) (l s : Fin 2048), i = ix4 b h l s := ⟨i 0, i 1, i 2, i 3, eq_ix4 i⟩
  refine (split_apply _ _ b h l s).trans ?_
  rw [scores3_apply, scores4_apply]
  exact row_merge x0 x1 h43 b h l s

theorem out_merge (x0 x1 x2 : (⟨4, ![4, 16, 2048, 64]⟩ : Shape).Idx → EReal)
    (h43 : (⟨4, ![4, 16, 2048, 64]⟩ : Shape).ShapeCasts ⟨3, ![64, 2048, 64]⟩)
    (h34 : (⟨3, ![64, 2048, 64]⟩ : Shape).ShapeCasts ⟨4, ![4, 16, 2048, 64]⟩) :
    shapeCast ⟨4, ![4, 16, 2048, 64]⟩ (out3 (shapeCast ⟨3, ![64, 2048, 64]⟩ x0 h43) (shapeCast ⟨3, ![64, 2048, 64]⟩ x1 h43) (shapeCast ⟨3, ![64, 2048, 64]⟩ x2 h43)) h34 = out4 x0 x1 x2 := by
  funext i
  obtain ⟨b, h, l, d, rfl⟩ : ∃ (b : Fin 4) (h : Fin 16) (l : Fin 2048) (d : Fin 64), i = ix4 b h l d := ⟨i 0, i 1, i 2, i 3, eq_ix4 i⟩
  refine (split_apply _ _ b h l d).trans ?_
  rw [out3_apply, out4_apply]
  refine Finset.sum_congr rfl fun t _ => ?_
  rw [row_merge, merge_apply]

end Cert.Attn.Merge

end
-- ==== Proof.KernelRun.lean ====
/-
  The kernel's run, read: its two results as the specification's functions of the three arguments.

  The program reshapes each argument [4, 16, 2048, 64] to [64, 2048, 64], runs the region, and reshapes the region's two
  result arrays back. The region leaves `Cert.Attn.out3` and `Cert.Attn.scores3` of the reshaped arguments in them; a
  row-major reshape merges batch `b` and head `h` into `16 b + h` and splits it back, and under that round trip the
  merged-axis functions are `Cert.Attn.out4` and `Cert.Attn.scores4` of the arguments themselves. The arguments end as
  launched.
-/
import proofs.«115952_j87196426043406_2_alg».proof.Proof.Gen.KernelIdeal.Frame
import proofs.«115952_j87196426043406_2_alg».proof.Proof.Region
import proofs.«115952_j87196426043406_2_alg».proof.Proof.HostSide
import proofs.«115952_j87196426043406_2_alg».proof.Proof.Merge
import proofs.«115952_j87196426043406_2_alg».proof.Proof.Spec

noncomputable section

namespace Cert.Attn.KernelRun

open Idealize.ShloMosaic Idealize.ShloMosaic.TcCoe Idealize.SL.Sem
open Idealize.ShloMosaic.Pipeline (Dat)
open Cert.KernelIdeal Cert.KernelIdeal.Gen Cert.Attn

variable (m : (ℓ : Loc nD τ sig) → Buf (Elt Ideal) ℓ) (ρ : Dev nD → PrngReg)

/-- After the lines that follow the region, the first result is the attention output of the arguments. -/
theorem result_v4 (c : Dev nD) :
    (Pipeline.afterTail₀ cfgs (dats m) 0 (V0 m) [hostOps1] c main_v4 : S4x16x2048x64.Idx → EReal)
      = out4 (m ((c : Thread nD τ).loc main_arg0)) (m ((c : Thread nD τ).loc main_arg1)) (m ((c : Thread nD τ).loc main_arg2)) := by
  rw [HostSide.tail_v4, Region.final3, HostSide.V_main_v0, HostSide.V_main_v1, HostSide.V_main_v2]
  exact Merge.out_merge _ _ _ _ _

/-- And the second result is the scores of the arguments. -/
theorem result_v5 (c : Dev nD) :
    (Pipeline.afterTail₀ cfgs (dats m) 0 (V0 m) [hostOps1] c main_v5 : S4x16x2048x2048.Idx → EReal)
      = scores4 (m ((c : Thread nD τ).loc main_arg0)) (m ((c : Thread nD τ).loc main_arg1)) := by
  rw [HostSide.tail_v5, Region.final4, HostSide.V_main_v0, HostSide.V_main_v1]
  exact Merge.scores_merge _ _ _ _

/-- Every weakly fair execution of the kernel's program terminates with the two results at the specification's
    functions of the arguments, and the arguments unchanged. -/
theorem run : θ_run defs (onTc (τ := τ) (main (F := Ideal))) ⟨m, fun _ => 0, ρ⟩ fun r => ∀ c : Dev nD,
      r.2.mem ((c.tc : Thread nD τ).loc main_v4)
        = out4 (m ((c.tc : Thread nD τ).loc main_arg0)) (m ((c.tc : Thread nD τ).loc main_arg1)) (m ((c.tc : Thread nD τ).loc main_arg2))
      ∧ r.2.mem ((c.tc : Thread nD τ).loc main_v5)
        = scores4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_v4 m c),
     ((h c).2 main_v5 (Pipeline.mem_restRefs_of main_v5 (by decide) (by decide))).trans (result_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Attn.KernelRun

end
-- ==== Proof.SoftmaxLaw.lean ====
/-
  The softmax row over the extended reals.

  A kernel may compute a softmax row without subtracting the row maximum and with the scale folded into the
  query before the dot product; a reference scales after the dot product, subtracts the row maximum and starts
  its sum from a zero. When every input is a real number both rows are rows of real numbers, and they are equal:
  exp (a s - m) / ∑ exp (a t - m) = exp (a s) / ∑ exp (a t), for exp (x - m) = exp x / exp m and exp m > 0.
  Beside that law: the values of the bit patterns the two programs name (1/8, 1, 64, -inf), 1 / sqrt 64 = 1/8,
  and the row maximum and the scaled dot product of reals are reals.
-/
import proofs.«115952_j87196426043406_2_alg».proof.Proof.Row
import Idealize.ShloMosaic.PureOps.Ideal
import Idealize.ShloMosaic.PureOps.Ideal.Laws

noncomputable section

namespace Cert.Attn
open Idealize.ShloMosaic

/-- the pattern 0x3E000000 is 2^(-3) -/
theorem scale_f32 : Ideal.ofBits .f32 0x3E000000#32 = ((1 / 8 : ℝ) : EReal) := by
  simp [Ideal.ofBits, Ideal.ieee, -EReal.coe_mul]; norm_num

/-- the pattern 0x3F800000 is 1 -/
theorem SoftmaxLaw.one_f32 : Ideal.ofBits .f32 0x3F800000#32 = ((1 : ℝ) : EReal) := by
  simp [Ideal.ofBits, Ideal.ieee, -EReal.coe_mul]; norm_num

/-- the pattern 0x42800000 is 64 = 2^6 -/
theorem SoftmaxLaw.sixtyfour_f32 : Ideal.ofBits .f32 0x42800000#32 = ((64 : ℝ) : EReal) := by
  simp [Ideal.ofBits, Ideal.ieee, -EReal.coe_mul]; norm_num

/-- 1 / sqrt 64 = 1 / 8 -/
theorem inv_sqrt_64 : Ideal.div (Ideal.ofBits .f32 0x3F800000#32) (Ideal.sqrt (Ideal.ofBits .f32 0x42800000#32)) = ((1 / 8 : ℝ) : EReal) := by
  have h : Real.sqrt 64 = 8 := by
    rw [show (64 : ℝ) = 8 ^ 2 by norm_num, Real.sqrt_sq (by norm_num)]
  rw [SoftmaxLaw.one_f32, SoftmaxLaw.sixtyfour_f32, Ideal.sqrt_coe, if_neg (by norm_num), h, Ideal.div_coe (by norm_num), ← EReal.coe_mul]
  norm_num

/-- the pattern 0xFF800000 is the negative infinity -/
theorem neg_inf_f32 : Ideal.ofBits .f32 0xFF800000#32 = ⊥ := by
  simp [Ideal.ofBits, Ideal.ieee]

/-- a row maximum of reals over a non-empty range, started at -inf and then joined with -inf once more, is a real -/
theorem rowMax_real {S : ℕ} (f : Fin S → EReal) (hf : ∀ t, ∃ r : ℝ, f t = (r : EReal)) (hS : 0 < S) :
    ∃ m : ℝ, max (⊥ : EReal) ((Finset.univ : Finset (Fin S)).fold max (⊥ : EReal) f) = (m : EReal) := by
  have hfold : (Finset.univ : Finset (Fin S)).fold max (⊥ : EReal) f = Finset.univ.sup f := rfl
  rw [hfold, max_eq_right bot_le]
  have hlo : Finset.univ.sup f ≠ ⊥ := by
    obtain ⟨r, hr⟩ := hf ⟨0, hS⟩
    have hle : f ⟨0, hS⟩ ≤ Finset.univ.sup f := Finset.le_sup (Finset.mem_univ _)
    intro h
    rw [h, hr] at hle
    exact absurd hle (not_le.mpr (EReal.bot_lt_coe r))
  have hhi : Finset.univ.sup f ≠ ⊤ := by
    have hlt : Finset.univ.sup f < ⊤ := by
      rw [Finset.sup_lt_iff bot_lt_top]
      intro t _
      obtain ⟨r, hr⟩ := hf t
      rw [hr]; exact EReal.coe_lt_top r
    exact ne_of_lt hlt
  exact ⟨(Finset.univ.sup f).toReal, (EReal.coe_toReal hhi hlo).symm⟩

/-- a finite sum of reals, each read as an extended real, is the sum of the reals read as an extended real -/
theorem SoftmaxLaw.coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- a dot product of reals, scaled, is a real (so the reference's logits are reals) -/
theorem logit_real {D : ℕ} (c : ℝ) (q k : Fin D → EReal) (hq : ∀ d, ∃ r : ℝ, q d = (r : EReal)) (hk : ∀ d, ∃ r : ℝ, k d = (r : EReal)) :
    ∃ r : ℝ, (∑ d, q d * k d) * (c : EReal) = (r : EReal) := by
  choose qr hqr using hq
  choose kr hkr using hk
  refine ⟨(∑ d, qr d * kr d) * c, ?_⟩
  simp only [hqr, hkr, ← EReal.coe_mul, SoftmaxLaw.coe_sum]

/-- with real inputs the reference's row (scale after the dot product, a real maximum subtracted, the sum started
    at zero) is the kernel's row (scale folded into the query, no subtraction) -/
theorem scoreR_eq_scoreK {D S : ℕ} (c m : ℝ) (q : Fin D → EReal) (k : Fin S → Fin D → EReal)
    (hq : ∀ d, ∃ r : ℝ, q d = (r : EReal)) (hk : ∀ t d, ∃ r : ℝ, k t d = (r : EReal)) (hS : 0 < S) (s : Fin S) :
    scoreR (c : EReal) (m : EReal) 0 q k s = scoreK (c : EReal) q k s := by
  choose qr hqr using hq
  choose kr hkr using hk
  -- both logits of column t are the one real a t = c * ∑ d, q d * k t d
  have hK : ∀ t, (∑ d, (q d * (c : EReal)) * k t d) = ((c * ∑ d, qr d * kr t d : ℝ) : EReal) := by
    intro t
    simp only [hqr, hkr, ← EReal.coe_mul, SoftmaxLaw.coe_sum]
    congr 1
    rw [Finset.mul_sum]
    exact Finset.sum_congr rfl (fun d _ => by ring)
  have hR : ∀ t, (∑ d, q d * k t d) * (c : EReal) = ((c * ∑ d, qr d * kr t d : ℝ) : EReal) := by
    intro t
    simp only [hqr, hkr, ← EReal.coe_mul, SoftmaxLaw.coe_sum]
    congr 1
    ring
  have hposK : (0 : ℝ) < ∑ t, Real.exp (c * ∑ d, qr d * kr t d) :=
    Finset.sum_pos (fun t _ => Real.exp_pos _) ⟨⟨0, hS⟩, Finset.mem_univ _⟩
  have hposR : (0 : ℝ) < ∑ t, Real.exp (c * ∑ d, qr d * kr t d - m) :=
    Finset.sum_pos (fun t _ => Real.exp_pos _) ⟨⟨0, hS⟩, Finset.mem_univ _⟩
  unfold scoreR scoreK
  simp only [hK, hR, ← EReal.coe_sub, Ideal.exp_coe, zero_add, SoftmaxLaw.coe_sum]
  rw [Ideal.div_coe hposK.ne', Ideal.div_coe hposR.ne', ← EReal.coe_mul, ← EReal.coe_mul]
  congr 1
  -- in the reals: exp (x - m) = exp x / exp m, and the common factor 1 / exp m cancels
  have hsub : ∀ t, Real.exp (c * ∑ d, qr d * kr t d - m) = Real.exp (c * ∑ d, qr d * kr t d) / Real.exp m :=
    fun t => Real.exp_sub _ _
  simp only [hsub, ← Finset.sum_div]
  have hm : Real.exp m ≠ 0 := (Real.exp_pos m).ne'
  field_simp

end Cert.Attn

end
-- ==== Proof.RefValue.lean ====
/-
  The reference program's scores and output, read index by index, are the specification's.

  At batch b, head h, query row l the reference computes the logits (∑ d, q l d · k s d) · c with the scale
  c = 1 / sqrt 64 = 1/8, the row maximum m of the logits (joined with -inf, which changes nothing), the exponentials
  exp (logit s - m), their sum started at zero, and the quotient. With real inputs the logits and m are reals, and
  the quotient is the softmax row with the scale folded into the query and no shift (the law of the softmax row).
  The output is the sum over the keys of score times value; the values take no part in the scores.
-/
import proofs.«115952_j87196426043406_2_alg».proof.Proof.Gen.ReferenceIdeal.Read
import proofs.«115952_j87196426043406_2_alg».proof.Proof.Spec
import proofs.«115952_j87196426043406_2_alg».proof.Proof.SoftmaxLaw

noncomputable section

namespace Cert.Attn.RefValue
open Idealize.ShloMosaic Idealize.ShloMosaic.ValueIdx Cert.ReferenceIdeal Cert.ReferenceIdeal.Read Cert.Attn

/-- the input arrays [4, 16, 2048, 64] over the extended reals -/
abbrev Arr : Type := (⟨S4x16x2048x64, .f32⟩ : BufTy).Contents (Elt Ideal)

/-- the scale the reference computes: 1 / sqrt 64 = 1/8 -/
theorem scale_val (i : S_.Idx) : val_main_v1 (F := Ideal) i = ((1 / 8 : ℝ) : EReal) := by
  rw [val_main_v1_apply, val_main_cst_0_apply, val_main_v0_apply, val_main_cst_apply]
  exact inv_sqrt_64

/-- the left operand's index of the first contraction at (b, h, l, s), coordinate k, is (b, h, l, k) -/
theorem lidx_v2 (b : Fin 4) (h : Fin 16) (l s : Fin 2048) (k : Fin 64) :
    lidx_main_v2 (ix4 b h l s) k = ix4 b h l k :=
  funext fun a => Fin.ext (by match a with | ⟨0, _⟩ => rfl | ⟨1, _⟩ => rfl | ⟨2, _⟩ => rfl | ⟨3, _⟩ => rfl)

/-- the right operand's index of the first contraction at (b, h, l, s), coordinate k, is (b, h, s, k) -/
theorem ridx_v2 (b : Fin 4) (h : Fin 16) (l s : Fin 2048) (k : Fin 64) :
    ridx_main_v2 (ix4 b h l s) k = ix4 b h s k :=
  funext fun a => Fin.ext (by match a with | ⟨0, _⟩ => rfl | ⟨1, _⟩ => rfl | ⟨2, _⟩ => rfl | ⟨3, _⟩ => rfl)

/-- the logit at (b, h, l, s): the dot product of query row l and key row s, times 1/8 -/
theorem logit_val (x0 x1 : Arr) (b : Fin 4) (h : Fin 16) (l s : Fin 2048) :
    val_main_v4 (F := Ideal) x0 x1 (ix4 b h l s)
      = (∑ d : Fin 64, x0 (ix4 b h l d) * x1 (ix4 b h s d)) * ((1 / 8 : ℝ) : EReal) := by
  rw [val_main_v4_apply, val_main_v2_apply, val_main_v3_apply, scale_val, Ideal.mulf_def]
  simp only [lidx_v2, ridx_v2]

/-- the reduced index (b, h, l) with the key coordinate t put back is (b, h, l, t) -/
theorem lift_v5 (hr : S4x16x2048x2048.Reduces [3] S4x16x2048) (b : Fin 4) (h : Fin 16) (l : Fin 2048)
    (t : Fin (S4x16x2048x2048.size 3)) :
    hr.lift (ix3 b h l) t = ix4 b h l (⟨t.val, t.isLt⟩ : Fin 2048) := by
  funext c; apply Fin.ext
  fin_cases c <;> rfl

/-- the reduce with a maximum body over the keys, started at -inf: the fold of max over the logits of the row -/
theorem v5_val (x0 x1 : Arr) (b : Fin 4) (h : Fin 16) (l : Fin 2048) :
    val_main_v5 (F := Ideal) x0 x1 (ix3 b h l)
      = (Finset.univ : Finset (Fin 2048)).fold max (⊥ : EReal) (fun t => val_main_v4 (F := Ideal) x0 x1 (ix4 b h l t)) := by
  have hr : S4x16x2048x2048.Reduces [3] S4x16x2048 := by decide
  unfold val_main_v5
  rw [Host.reduce_eq_fold_single FloatOps.maximumf _ _ _ hr _ (ix3 b h l), val_main_cst_1_apply]
  have hb : (FloatOps.ofBits .f32 0xFF800000#32 : Ideal .f32) = (⊥ : EReal) := neg_inf_f32
  rw [hb]
  have hf : (val_main_v4 (F := Ideal) x0 x1 ∘ hr.lift (ix3 b h l))
      = fun t : Fin 2048 => val_main_v4 (F := Ideal) x0 x1 (ix4 b h l t) :=
    funext fun t => congrArg (val_main_v4 (F := Ideal) x0 x1) (lift_v5 hr b h l t)
  exact congrArg (fun f => Finset.fold max (⊥ : EReal) f (Finset.univ : Finset (Fin 2048))) hf

/-- the row maximum at (b, h, l): -inf joined with the fold of max, from -inf, over the logits of the row -/
theorem rowMax_val (x0 x1 : Arr) (b : Fin 4) (h : Fin 16) (l : Fin 2048) :
    val_main_v7 (F := Ideal) x0 x1 (ix3 b h l)
      = max (⊥ : EReal) ((Finset.univ : Finset (Fin 2048)).fold max (⊥ : EReal)
          (fun t => val_main_v4 (F := Ideal) x0 x1 (ix4 b h l t))) := by
  rw [val_main_v7_apply, val_main_v6_apply, val_main_cst_2_apply, v5_val, Ideal.maximumf_def]
  have hb : (FloatOps.ofBits .f32 0xFF800000#32 : Ideal .f32) = (⊥ : EReal) := neg_inf_f32
  rw [hb]

/-- the exponential at (b, h, l, s): exp of the logit minus the row maximum -/
theorem exp_val (x0 x1 : Arr) (b : Fin 4) (h : Fin 16) (l s : Fin 2048) :
    val_main_v11 (F := Ideal) x0 x1 (ix4 b h l s)
      = Ideal.exp (val_main_v4 (F := Ideal) x0 x1 (ix4 b h l s) - val_main_v7 (F := Ideal) x0 x1 (ix3 b h l)) := by
  rw [val_main_v11_apply, val_main_v10_apply, val_main_v9_apply, val_main_v8_apply, Ideal.hostUnary_exp_def,
    Ideal.subf_def]
  have e : idx_main_v8 (idx_main_v9 (ix4 b h l s)) = ix3 b h l :=
    funext fun a => Fin.ext (by match a with | ⟨0, _⟩ => rfl | ⟨1, _⟩ => rfl | ⟨2, _⟩ => rfl)
  rw [e]

/-- the denominator at (b, h, l, s): zero plus the sum of the exponentials of the row -/
theorem den_val (x0 x1 : Arr) (b : Fin 4) (h : Fin 16) (l s : Fin 2048) :
    val_main_v14 (F := Ideal) x0 x1 (ix4 b h l s)
      = 0 + ∑ t : Fin 2048, val_main_v11 (F := Ideal) x0 x1 (ix4 b h l t) := by
  rw [val_main_v14_apply, val_main_v13_apply, val_main_v12_apply, val_main_cst_3_apply]
  have hz : (FloatOps.ofBits .f32 0x00000000#32 : Ideal .f32) = (0 : EReal) := Ideal.ofBits_zero_f32
  rw [hz]
  have e : ∀ t : Fin 2048, idx_main_v12 (idx_main_v13 (idx_main_v14 (ix4 b h l s))) t = ix4 b h l t := fun t =>
    funext fun a => Fin.ext (by match a with | ⟨0, _⟩ => rfl | ⟨1, _⟩ => rfl | ⟨2, _⟩ => rfl | ⟨3, _⟩ => rfl)
  simp only [e]

/-- with real queries and keys the reference's scores are the specification's -/
theorem scores_eq (x0 x1 : (⟨S4x16x2048x64, .f32⟩ : BufTy).Contents (Elt Ideal))
    (h0 : ∀ i, ∃ r : ℝ, x0 i = (r : EReal)) (h1 : ∀ i, ∃ r : ℝ, x1 i = (r : EReal)) :
    val_main_v15 (F := Ideal) x0 x1 = scores4 x0 x1 := by
  funext i
  obtain ⟨b, h, l, s, rfl⟩ : ∃ (b : Fin 4) (h : Fin 16) (l s : Fin 2048), i = ix4 b h l s :=
    ⟨i 0, i 1, i 2, i 3, eq_ix4 i⟩
  rw [scores4_apply, val_main_v15_apply, Ideal.hostDivf_def, den_val]
  simp only [exp_val, rowMax_val, logit_val]
  -- the row maximum is a real
  obtain ⟨m, hm⟩ := rowMax_real
    (fun t : Fin 2048 => (∑ d : Fin 64, x0 (ix4 b h l d) * x1 (ix4 b h t d)) * ((1 / 8 : ℝ) : EReal))
    (fun t => logit_real (1 / 8) (fun d : Fin 64 => x0 (ix4 b h l d)) (fun d : Fin 64 => x1 (ix4 b h t d))
      (fun d => h0 _) (fun d => h1 _)) (by norm_num)
  rw [hm]
  have law := scoreR_eq_scoreK (1 / 8) m (fun d : Fin 64 => x0 (ix4 b h l d))
    (fun (t : Fin 2048) (d : Fin 64) => x1 (ix4 b h t d)) (fun d => h0 _) (fun t d => h1 _) (by norm_num) s
  refine Eq.trans ?_ (law.trans ?_)
  · rfl
  · unfold row4
    rw [show cK = ((1 / 8 : ℝ) : EReal) from scale_f32]

/-- the left operand's index of the second contraction at (b, h, l, d), coordinate t, is (b, h, l, t) -/
theorem lidx_v16 (b : Fin 4) (h : Fin 16) (l : Fin 2048) (d : Fin 64) (t : Fin 2048) :
    lidx_main_v16 (ix4 b h l d) t = ix4 b h l t :=
  funext fun a => Fin.ext (by match a with | ⟨0, _⟩ => rfl | ⟨1, _⟩ => rfl | ⟨2, _⟩ => rfl | ⟨3, _⟩ => rfl)

/-- the right operand's index of the second contraction at (b, h, l, d), coordinate t, is (b, h, t, d) -/
theorem ridx_v16 (b : Fin 4) (h : Fin 16) (l : Fin 2048) (d : Fin 64) (t : Fin 2048) :
    ridx_main_v16 (ix4 b h l d) t = ix4 b h t d :=
  funext fun a => Fin.ext (by match a with | ⟨0, _⟩ => rfl | ⟨1, _⟩ => rfl | ⟨2, _⟩ => rfl | ⟨3, _⟩ => rfl)

/-- with real queries and keys the reference's output is the specification's -/
theorem out_eq (x0 x1 x2 : (⟨S4x16x2048x64, .f32⟩ : BufTy).Contents (Elt Ideal))
    (h0 : ∀ i, ∃ r : ℝ, x0 i = (r : EReal)) (h1 : ∀ i, ∃ r : ℝ, x1 i = (r : EReal)) :
    val_main_v16 (F := Ideal) x0 x1 x2 = out4 x0 x1 x2 := by
  funext i
  obtain ⟨b, h, l, d, rfl⟩ : ∃ (b : Fin 4) (h : Fin 16) (l : Fin 2048) (d : Fin 64), i = ix4 b h l d :=
    ⟨i 0, i 1, i 2, i 3, eq_ix4 i⟩
  rw [out4_apply, val_main_v16_apply, scores_eq x0 x1 h0 h1]
  simp only [lidx_v16, ridx_v16, scores4_apply]

end Cert.Attn.RefValue

end
-- ==== Proof.FiniteInputs.lean ====
/-
  Finiteness read off the precondition. The precondition computes, for three arrays of extended reals,
  all(|x0| < +inf) and all(|x1| < +inf) and all(|x2| < +inf) as one bit; when that bit is 1, every entry of each
  array is a real number: an entry that is -inf or +inf has absolute value +inf, which is not below +inf.
-/
import proofs.«115952_j87196426043406_2_alg».proof.Pre_finite_inputs
import proofs.«115952_j87196426043406_2_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic
open Cert.Pre_finite_inputs

/-- The scalar shape has one index. -/
instance : Subsingleton S_.Idx := ⟨fun a b => funext fun d => d.elim0⟩

/-- The 32-bit pattern with all exponent bits set, sign and fraction zero, denotes +inf. -/
theorem inf_bits : Ideal.ofBits .f32 0x7F800000#32 = (⊤ : EReal) := by
  simp [Ideal.ofBits, Ideal.ieee]

/-- If the comparison |x| < +inf comes out true, x is a real number: for x = -inf or x = +inf, max x (-x) = +inf. -/
theorem real_of_cmp (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One array's all(|x| < +inf), read back: the reduction by "and" over every axis is 1 only if the comparison is 1
    at every index, and there it says the entry is real. -/
theorem real_of_all [Facts] (x : FVec Ideal S4x16x2048x64 .f32)
    (h : Host.reduce IntOp.andi
          (cmpf .olt (Host.absf x)
            (broadcastInDim S4x16x2048x64 ![] Facts.bcast_S_S4x16x2048x64 (constant (F := Ideal) S_ .f32 0x7F800000#32)))
          (constantI S_ 1 1#1) Facts.reducesTo_S4x16x2048x64_S_d0_1_2_3 Facts.h_S_ ValueIdx.ix0 = 1#1) :
    ∀ i, ∃ r : ℝ, x i = (r : EReal) := by
  intro i
  have hp := Host.reduce_andi_all _ _ _ _ _ h i
  refine real_of_cmp (x i) ?_
  rw [← inf_bits]
  exact hp

theorem real_of_pre [Facts]
    (x0 x1 x2 : FVec Ideal S4x16x2048x64 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.Attn.Finite

end
-- ==== Proof.lean ====
/-
  Attention without max subtraction against jnp's softmax attention, over the extended reals.

  The kernel computes, per batch-and-head and per block of 512 query rows, the logits of the query scaled by one eighth
  against the keys, their exponentials divided by the row sum, and the product of those scores with the values; it
  returns the output and the scores. The reference computes `softmax (q kᵀ · (1 / sqrt 64))` and its product with the
  values, where the softmax subtracts each row's maximum before the exponential.

  At finite inputs the two agree entry by entry:
  • `sqrt 64 = 8`, so the reference's scale is the kernel's one eighth, and a real scale moves across a finite sum of
    reals, so the logits are the same real numbers;
  • a row of real logits has a real maximum `m`, and `exp (x − m) / ∑ exp (x' − m) = exp x / ∑ exp x'` since
    `exp (−m)` is a nonzero factor of numerator and denominator; a sum that starts from zero is the plain sum;
  • the scores being equal, their products with the values are the same sums (no finiteness of the values is used).
  The finiteness of the query and key entries is the precondition's. A change of float format is the identity at this
  instance, a matrix product into a zero accumulator is the plain sum over the contracted axis, and the reshapes that
  merge batch and head into one grid axis and split them back do not move an entry's value.

  The pass that idealizes the kernel rewrote nothing, so the preservation claim is `True`. The three frames are the
  two programs' generated frame runs and the reference's generated run with its results dropped.
-/
import proofs.«115952_j87196426043406_2_alg».proof.Defs
import proofs.«115952_j87196426043406_2_alg».proof.Proof.Gen.Kernel
import proofs.«115952_j87196426043406_2_alg».proof.Proof.Gen.Kernel.Skeleton
import proofs.«115952_j87196426043406_2_alg».proof.Proof.Gen.Kernel.Launch
import proofs.«115952_j87196426043406_2_alg».proof.Proof.Gen.Kernel.Points
import proofs.«115952_j87196426043406_2_alg».proof.Proof.Gen.Kernel.Frame
import proofs.«115952_j87196426043406_2_alg».proof.Proof.Gen.KernelIdeal
import proofs.«115952_j87196426043406_2_alg».proof.Proof.Gen.KernelIdeal.Skeleton
import proofs.«115952_j87196426043406_2_alg».proof.Proof.Gen.KernelIdeal.Launch
import proofs.«115952_j87196426043406_2_alg».proof.Proof.Gen.KernelIdeal.Points
import proofs.«115952_j87196426043406_2_alg».proof.Proof.Gen.KernelIdeal.Frame
import proofs.«115952_j87196426043406_2_alg».proof.Proof.Gen.ReferenceIdeal
import proofs.«115952_j87196426043406_2_alg».proof.Proof.Gen.ReferenceIdeal.Run
import proofs.«115952_j87196426043406_2_alg».proof.Proof.Gen.ReferenceIdeal.Read
import proofs.«115952_j87196426043406_2_alg».proof.Proof.Gen.Pre_finite_inputs
import proofs.«115952_j87196426043406_2_alg».proof.Proof.KernelRun
import proofs.«115952_j87196426043406_2_alg».proof.Proof.RefValue
import proofs.«115952_j87196426043406_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the attention output and the scores of the arguments: the kernel's by its run read through
    the grid and the reshapes, the reference's by its run read one operation at a time and the softmax law, at the
    finite query and key entries the precondition gives. -/
theorem algebraic : Cert.algebraic_KernelIdeal_ReferenceIdeal := by
  intro m ρ m' ρ' hpre hagree
  refine ⟨fun c => Cert.Attn.out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.scores4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Attn.KernelRun.run m ρ, ?_⟩
  refine (θ_run Cert.ReferenceIdeal.defs _ _).mono (fun _ h c => ?_) (Cert.ReferenceIdeal.Value.run (F := Ideal) m' ρ')
  obtain ⟨hq, hk, -⟩ := Cert.Attn.Finite.real_of_pre _ _ _ (hpre c)
  obtain ⟨a0, a1, a2⟩ := hagree c
  refine ⟨(h c).1.trans ?_, (h c).2.1.trans ?_, (h c).2.2⟩
  · rw [a0, a1, a2, Cert.ReferenceIdeal.Read.val_main_v16_eq]
    exact Cert.Attn.RefValue.out_eq _ _ _ hq hk
  · rw [a0, a1, Cert.ReferenceIdeal.Read.val_main_v15_eq]
    exact Cert.Attn.RefValue.scores_eq _ _ hq hk

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
